-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .bf16⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S2048x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .f32 = 32 ∨ (Rect.block (s := S2048x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x2048.size a
  hwx1_3 : ∀ i : grid1.Coords, EltTy.bits .f32 = 32 ∨ (Rect.block (s := S8192x2048) S1024x2048.size (cc1_transform_3 i) (hinb1_3 i)).WholeWords (EltTy.packing .f32)

variable [Facts₀]

def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KernelRun.lean ====
/-
  The kernel program's run with its result array named.

  The program is two kernel regions with one host operation between them. Its run is stated here with the final
  contents of the result array `main_v2` named — what the second region's write-backs leave, `W3` at that array —
  beside the unchanged argument arrays: the launch over the program's segments, with the last thread state read at the
  result array as well as at the arguments.
-/
import proofs.«155609_j83726092468397_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [Cert.KernelIdeal.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the contents
    the second region leaves and the three arguments as launched. -/
theorem run_named : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.RunValue

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.Binarize.lean ====
/-
  Binarizing a weight on the extended reals.

  A weight is first clipped to the interval from -1 to 1 and then replaced by its sign: -1 below zero, 0 at zero, 1
  above zero. The clipped value is always a real number (it lies between -1 and 1 whatever the weight, an infinity
  included), so the "straight-through" spelling  clipped + (sign clipped - clipped)  is the sign itself: on real numbers
  the two copies of the clipped value cancel. No finiteness of the weight is needed for this.
-/
import Idealize.ShloMosaic.PureOps.Ideal.Laws
import Idealize.ShloMosaic.PureOps.IdealRules

noncomputable section

namespace Cert.Binarize

open Idealize.ShloMosaic

/-- The f32 patterns of 1 and of -1 denote those numbers. -/
theorem one_val : Ideal.ofBits .f32 0x3F800000#32 = 1 := IdealRules.sign_bit.ideal_onePat .f32
theorem negOne_val : Ideal.ofBits .f32 0xBF800000#32 = -1 := IdealRules.sign_bit.ideal_negOnePat .f32

/-- A value clipped to the interval from -1 to 1 (the bounds written as the f32 patterns both programs carry). -/
def clip (a : EReal) : EReal := min (Ideal.ofBits .f32 0x3F800000#32) (max (Ideal.ofBits .f32 0xBF800000#32) a)

/-- The binarized weight: the sign of the clipped value. -/
def bin (a : EReal) : EReal := Ideal.sign (clip a)

/-- Minus one, as the extended real of the real number -1. -/
theorem negOne_coe : (-1 : EReal) = ((-1 : ℝ) : EReal) := by rw [EReal.coe_neg, EReal.coe_one]

theorem clip_le_one (a : EReal) : clip a ≤ 1 := by
  unfold clip; rw [one_val]; exact min_le_left _ _

theorem negOne_le_clip (a : EReal) : -1 ≤ clip a := by
  unfold clip; rw [one_val, negOne_val]
  refine le_min ?_ (le_max_left _ _)
  rw [negOne_coe, ← EReal.coe_one]
  exact EReal.coe_le_coe_iff.mpr (by norm_num)

/-- The clipped value is a real number, whatever was clipped. -/
theorem clip_real (a : EReal) : ∃ r : ℝ, clip a = (r : EReal) := by
  have htop : clip a ≠ ⊤ := ne_of_lt (lt_of_le_of_lt (clip_le_one a) (by exact_mod_cast EReal.coe_lt_top 1))
  have hbot : clip a ≠ ⊥ := ne_of_gt (lt_of_lt_of_le (by rw [negOne_coe]; exact EReal.bot_lt_coe _) (negOne_le_clip a))
  exact ⟨(clip a).toReal, (EReal.coe_toReal htop hbot).symm⟩

/-- The straight-through spelling is the sign: the clipped value, being real, cancels. -/
theorem straightThrough (a : EReal) : clip a + (Ideal.sign (clip a) - clip a) = bin a := by
  obtain ⟨r, hr⟩ := clip_real a
  unfold bin
  rw [hr, Ideal.sign_coe, ← EReal.coe_sub, ← EReal.coe_add]
  congr 1; ring

/-- Binarizing every entry of an array. -/
def binArr {s : Shape} (w : s.Idx → EReal) : s.Idx → EReal := fun i => bin (w i)

theorem binArr_apply {s : Shape} (w : s.Idx → EReal) (i : s.Idx) : binArr w i = bin (w i) := rfl

/-- A kernel's spelling of the sign of the clipped block — 1 carrying the sign where the magnitude is above zero, the
    value itself (zero) elsewhere, then a change of float format — is `binArr` of the block. -/
theorem select_form {s : Shape} (x : FVec Ideal s .f32) (h : FTy.bits .bf16 < FTy.bits .f32) :
    truncf .bf16
      (select (cmpf .ogt (absf (minimumf (broadcast s (Scalar.ofBits .f32 0x3F800000#32)) (maximumf (broadcast s (Scalar.ofBits .f32 0xBF800000#32)) x)))
          (broadcast s (Scalar.ofBits .f32 0x00000000#32)))
        (select (cmpf .olt (minimumf (broadcast s (Scalar.ofBits .f32 0x3F800000#32)) (maximumf (broadcast s (Scalar.ofBits .f32 0xBF800000#32)) x)) (constant s .f32 0x00000000#32))
          (constant s .f32 0xBF800000#32) (constant s .f32 0x3F800000#32))
        (minimumf (broadcast s (Scalar.ofBits .f32 0x3F800000#32)) (maximumf (broadcast s (Scalar.ofBits .f32 0xBF800000#32)) x))) h
      = binArr x :=
  funext fun i => Ideal.jnp_sign_eq_sign_f32 (clip (x i))

end Cert.Binarize

end
-- ==== Proof.BodyValue.lean ====
/-
  The two kernel bodies as functions of the blocks they load.

  The first body stores the binarized block of weights. The second stores its block of input rows times the whole
  array of binarized weights, plus the one bias row on every row: its matrix product accumulates into the zero splat,
  and the changes of float format and the shape casts to the same shape are the identity.
-/
import proofs.«155609_j83726092468397_1_alg».proof.Proof.Gen.KernelIdeal.Skeleton
import proofs.«155609_j83726092468397_1_alg».proof.Proof.LibPlainDot
import proofs.«155609_j83726092468397_1_alg».proof.Proof.LibRowBias
import proofs.«155609_j83726092468397_1_alg».proof.Proof.Binarize
import Idealize.ShloMosaic.Lib.Pipeline.Value
import Idealize.ShloMosaic.Lib.ValueLayout

noncomputable section

namespace Cert.BodyValue

open Idealize.ShloMosaic Idealize.ShloMosaic.ValueIdx Cert.KernelIdeal Cert.KernelIdeal.Gen
open Cert.LibPlainDot Cert.LibRowBias Cert.Binarize

variable [Cert.KernelIdeal.Facts]

/-- The first body's stored value is the binarized block. -/
theorem binarize_body (x : Vec Ideal S512x2048 .f32) : k0_pay1 (F := Ideal) x = binArr x :=
  select_form x Facts₀.bitsLt_bf16_f32

/-- The second body's contraction record is the plain one: rows by columns, no batch axis. -/
theorem dot_plain : dot_S1024x2048_S2048x2048_S1024x2048_1_0_0_1_n_n = DotDims.plain 1024 2048 2048 := rfl

/-- The second body's stored value: the block of rows times the weights, plus the bias row on every row. -/
theorem matmul_body (x0 : Vec Ideal S1024x2048 .f32) (x1 : Vec Ideal S2048x2048 .bf16) (x2 : Vec Ideal S1x2048 .f32) :
    k1_pay1 (F := Ideal) x0 x1 x2
      = rowBias (M := 1024) (N := 2048) (rowsTimes (M := 1024) (K := 2048) (N := 2048) x0 x1) x2 := by
  unfold k1_pay1
  rw [shapeCast_self, shapeCast_self]
  funext j
  obtain ⟨p, q, rfl⟩ : ∃ (p : Fin 1024) (q : Fin 2048), j = ix2 p q := ⟨j 0, j 1, eq_ix2 j⟩
  rw [rowBias_apply]
  have hb : broadcastTo S1024x2048 x2 Facts₀.broadcasts_S1x2048_S1024x2048 (ix2 p q) = x2 (ix2 (0 : Fin 1) q) :=
    broadcastTo_apply x2 _ (ix2 p q) (ix2 (0 : Fin 1) q) (fun a => by
      match a with
      | ⟨0, _⟩ => show 0 = if (1 : ℕ) = 1 then 0 else p.val; rw [if_pos rfl]
      | ⟨1, _⟩ => show q.val = if (2048 : ℕ) = 1 then 0 else q.val; rw [if_neg (by decide)])
  have hm : matmul (F := Ideal) (φ₁ := .bf16) (φ₂ := .bf16) dot_S1024x2048_S2048x2048_S1024x2048_1_0_0_1_n_n none (truncf .bf16 x0 Facts₀.bitsLt_bf16_f32) (x1 : FVec Ideal S2048x2048 .bf16)
      (constant S1024x2048 .f32 0x00000000#32) = rowsTimes (M := 1024) (K := 2048) (N := 2048) x0 x1 := by
    rw [dot_plain]
    exact matmul_zero_plain (φ₁ := .bf16) (φ₂ := .bf16) none (truncf .bf16 x0 Facts₀.bitsLt_bf16_f32) x1
  show matmul (F := Ideal) (φ₁ := .bf16) (φ₂ := .bf16) dot_S1024x2048_S2048x2048_S1024x2048_1_0_0_1_n_n none (truncf .bf16 x0 Facts₀.bitsLt_bf16_f32) (x1 : FVec Ideal S2048x2048 .bf16)
      (constant S1024x2048 .f32 0x00000000#32) (ix2 p q)
    + broadcastTo S1024x2048 x2 Facts₀.broadcasts_S1x2048_S1024x2048 (ix2 p q) = _
  rw [hm, hb]

end Cert.BodyValue

end
-- ==== Proof.RowBlocks.lean ====
/-
  A block of rows of "inputs times weights plus a bias row" is that same function of the block of rows of the inputs:
  an entry depends on its own row of the inputs, on its column of the weights and on its column of the bias only.
-/
import proofs.«155609_j83726092468397_1_alg».proof.Proof.LibPlainDot
import proofs.«155609_j83726092468397_1_alg».proof.Proof.LibRowBias

noncomputable section

namespace Cert.RowBlocks

open Idealize.ShloMosaic Idealize.ShloMosaic.ValueIdx Cert.LibPlainDot Cert.LibRowBias

/-- If `xb` holds rows `o, …, o + R - 1` of `x`, then `xb` times `w` plus the row `b` holds those rows of `x` times `w`
    plus the row `b`. -/
theorem affine_rows {M R K N : ℕ} (o : ℕ) (x : (⟨2, ![M, K]⟩ : Shape).Idx → EReal) (xb : (⟨2, ![R, K]⟩ : Shape).Idx → EReal)
    (w : (⟨2, ![K, N]⟩ : Shape).Idx → EReal) (b : (⟨2, ![1, N]⟩ : Shape).Idx → EReal)
    (hx : ∀ (p : Fin R) (k : Fin K) (h : o + p.val < M), xb (ix2 p k) = x (ix2 (⟨o + p.val, h⟩ : Fin M) k))
    (y : (⟨2, ![R, N]⟩ : Shape).Idx) (i : (⟨2, ![M, N]⟩ : Shape).Idx) (h0 : (i 0).val = o + (y 0).val) (h1 : (i 1).val = (y 1).val) :
    rowBias (rowsTimes xb w) b y = rowBias (rowsTimes x w) b i :=
  rowBias_rows o (rowsTimes x w) (rowsTimes xb w) b
    (fun p q h => rowsTimes_rows o x xb w hx (ix2 p q) (ix2 (⟨o + p.val, h⟩ : Fin M) q) rfl rfl) y i h0 h1

end Cert.RowBlocks

end
-- ==== Proof.RegionValue.lean ====
/-
  What each kernel region leaves in its output array, as one function of the arrays the region finds.

  Region 0 walks the weights in four blocks of 512 rows and writes back, at each point, the binarized block: its
  output array ends as the binarized weights. Region 1 walks the inputs in eight blocks of 1024 rows, with the whole
  weight array and the whole bias row at every point, and writes back that block of rows times the weights plus the
  bias row: its output array ends as inputs times weights plus the bias row on every row. In both, the point that
  covers row r is r divided by the block's height.
-/
import proofs.«155609_j83726092468397_1_alg».proof.Proof.Gen.KernelIdeal.Frame
import proofs.«155609_j83726092468397_1_alg».proof.Proof.BodyValue
import proofs.«155609_j83726092468397_1_alg».proof.Proof.RowBlocks
import Idealize.ShloMosaic.Lib.Pipeline.Value

noncomputable section

namespace Cert.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.LibPlainDot Cert.LibRowBias Cert.Binarize Cert.BodyValue Cert.RowBlocks

variable (V : (c : Dev nD) → (b : Ref sig .tc) → Buf (Elt Ideal) ((c : Thread nD τ).loc b))

theorem offZero : (![0, 0] : Fin 2 → Nat) = fun _ => 0 := funext fun a => by fin_cases a <;> rfl

/-! ## Region 0: the binarized weights -/

/-- The block indices of region 0's two windows at point `t`: block row `t`, block column 0. -/
theorem blockIdx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the binarized weights. -/
theorem flushed0_eq (c : Dev nD) (t : Fin cfg0.N) :
    (dat0 V c).flushed 1 t = ((cfg0.win 1).blk t).view.read (Elt Ideal) (binArr (s := S2048x2048) (V c main_arg1)) := by
  show (cfg0.win 1).cut (grid0.coords t) ((dat0 V c).after 1 t) = _
  rw [after0_1]
  unfold out0_1
  rw [View.canon_unit_zero offZero]
  simp only [View.ld_unit_zero (S := S512x2048) offZero]
  rw [binarize_body]
  obtain ⟨e0, e1, e2, e3⟩ := blockIdx0 t
  refine funext fun (j : S512x2048.Idx) => ?_
  show bin (V c main_arg1 (((cfg0.win 0).blk t).view.emb j)) = bin (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 2048 + 1 * (j 1).val = win0_1.index t (1 : Fin 2) * 2048 + 1 * (j 1).val; omega
  rw [h0]

/-- An index of the output array is in point `t`'s block iff each coordinate is in the block's range on its axis. -/
theorem mem_blk0 (t : Fin cfg0.N) (i : S2048x2048.Idx) :
    i ∈ ((cfg0.win 1).blk t).view.set ↔ ∀ a : Fin 2, win0_1.index t a * S512x2048.size a ≤ (i a).val ∧ (i a).val < win0_1.index t a * S512x2048.size a + S512x2048.size a := by
  show i ∈ ((View.whole main_v0).slice (win0_1.rect t)).set ↔ _
  rw [View.set_slice_whole, Rect.mem_set_unit]
  exact Iff.rfl

/-- Every index of the output array is in some point's block: row `r` in the block of point `r / 512`. -/
theorem cover0 (i : S2048x2048.Idx) : ∃ t : Fin cfg0.N, (cfg0.win 1).flush t = true ∧ i ∈ ((cfg0.win 1).blk t).view.set := by
  have hi0 : (i 0).val < 2048 := (i 0).isLt
  have hi1 : (i 1).val < 2048 := (i 1).isLt
  have ht : (i 0).val / 512 < cfg0.N := by show _ < grid0.N; rw [N_0]; omega
  obtain ⟨e0, e1, e2, e3⟩ := blockIdx0 ⟨(i 0).val / 512, ht⟩
  refine ⟨⟨(i 0).val / 512, ht⟩, flush0_1 _, ?_⟩
  rw [mem_blk0]
  intro a
  match a with
  | ⟨0, _⟩ =>
    show win0_1.index ⟨(i 0).val / 512, ht⟩ (0 : Fin 2) * 512 ≤ (i 0).val ∧ (i 0).val < win0_1.index ⟨(i 0).val / 512, ht⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, ht⟩ (1 : Fin 2) * 2048 ≤ (i 1).val ∧ (i 1).val < win0_1.index ⟨(i 0).val / 512, ht⟩ (1 : Fin 2) * 2048 + 2048
    rw [e3]; omega

/-- Region 0's output array ends as the binarized weights. -/
theorem final0 (c : Dev nD) : (dat0 V c).arrAt 1 cfg0.N = binArr (s := S2048x2048) (V c main_arg1) :=
  (dat0 V c).arrAt_eq_of_cover 1 (binArr (s := S2048x2048) (V c main_arg1)) (fun t _ => flushed0_eq V c t) cover0

/-! ## Region 1: inputs times weights plus the bias row -/

/-- The block indices of region 1's four windows at point `t`: the inputs and the output at block row `t`, the weights
    and the bias at their one block. -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The weights' window holds the whole weight array at every point. -/
theorem weights_block (c : Dev nD) (t : Fin cfg1.N) : iblk1 V c 1 t = V c main_v0 := by
  obtain ⟨e0, e1, e2, e3, e4, e5, e6, e7⟩ := blockIdx1 t
  refine funext fun (y : S2048x2048.Idx) => ?_
  show V c main_v0 (((cfg1.win 1).blk t).view.emb y) = V c main_v0 y
  refine congrArg (V c main_v0) (funext fun a => Fin.ext ?_)
  match a with
  | ⟨0, _⟩ => show win1_1.index t (0 : Fin 2) * 2048 + 1 * (y 0).val = (y 0).val; omega
  | ⟨1, _⟩ => show win1_1.index t (1 : Fin 2) * 2048 + 1 * (y 1).val = (y 1).val; omega

/-- The bias' window holds the whole bias row at every point. -/
theorem bias_block (c : Dev nD) (t : Fin cfg1.N) : iblk1 V c 2 t = V c main_v1 := by
  obtain ⟨e0, e1, e2, e3, e4, e5, e6, e7⟩ := blockIdx1 t
  refine funext fun (y : S1x2048.Idx) => ?_
  show V c main_v1 (((cfg1.win 2).blk t).view.emb y) = V c main_v1 y
  refine congrArg (V c main_v1) (funext fun a => Fin.ext ?_)
  match a with
  | ⟨0, _⟩ => show win1_2.index t (0 : Fin 2) * 1 + 1 * (y 0).val = (y 0).val; omega
  | ⟨1, _⟩ => show win1_2.index t (1 : Fin 2) * 2048 + 1 * (y 1).val = (y 1).val; omega

/-- The inputs' window holds rows `1024 t, …, 1024 t + 1023` of the inputs. -/
theorem inputs_block (c : Dev nD) (t : Fin cfg1.N) (p : Fin 1024) (k : Fin 2048) (h : t.val * 1024 + p.val < 8192) :
    iblk1 V c 0 t (ix2 p k) = V c main_arg0 (ix2 (⟨t.val * 1024 + p.val, h⟩ : Fin 8192) k) := by
  obtain ⟨e0, e1, e2, e3, e4, e5, e6, e7⟩ := blockIdx1 t
  show V c main_arg0 (((cfg1.win 0).blk t).view.emb (ix2 p k)) = _
  refine congrArg (V c main_arg0) (funext fun a => Fin.ext ?_)
  match a with
  | ⟨0, _⟩ => show win1_0.index t (0 : Fin 2) * 1024 + 1 * p.val = t.val * 1024 + p.val; omega
  | ⟨1, _⟩ => show win1_0.index t (1 : Fin 2) * 2048 + 1 * k.val = k.val; omega

/-- What point `t` writes back is block `t` of inputs times weights plus the bias row. -/
theorem flushed1_eq (c : Dev nD) (t : Fin cfg1.N) :
    (dat1 V c).flushed 3 t = ((cfg1.win 3).blk t).view.read (Elt Ideal)
      (rowBias (M := 8192) (N := 2048) (rowsTimes (M := 8192) (K := 2048) (N := 2048) (V c main_arg0) (V c main_v0)) (V c main_v1)) := by
  show (cfg1.win 3).cut (grid1.coords t) ((dat1 V c).after 3 t) = _
  rw [after1_3]
  unfold out1_3
  rw [View.canon_unit_zero offZero]
  simp only [View.ld_unit_zero (S := S1024x2048) offZero, View.ld_unit_zero (S := S2048x2048) offZero, View.ld_unit_zero (S := S1x2048) offZero]
  rw [matmul_body, weights_block, bias_block]
  obtain ⟨e0, e1, e2, e3, e4, e5, e6, e7⟩ := blockIdx1 t
  refine funext fun (j : S1024x2048.Idx) => ?_
  show rowBias (M := 1024) (N := 2048) (rowsTimes (M := 1024) (K := 2048) (N := 2048) (iblk1 V c 0 t) (V c main_v0)) (V c main_v1) j
    = rowBias (M := 8192) (N := 2048) (rowsTimes (M := 8192) (K := 2048) (N := 2048) (V c main_arg0) (V c main_v0)) (V c main_v1) (((cfg1.win 3).blk t).view.emb j)
  refine affine_rows (t.val * 1024) (V c main_arg0) (iblk1 V c 0 t) (V c main_v0) (V c main_v1) (fun p k h => inputs_block V c t p k h) j _ ?_ ?_
  · show win1_3.index t (0 : Fin 2) * 1024 + 1 * (j 0).val = t.val * 1024 + (j 0).val; omega
  · show win1_3.index t (1 : Fin 2) * 2048 + 1 * (j 1).val = (j 1).val; omega

/-- An index of the output array is in point `t`'s block iff each coordinate is in the block's range on its axis. -/
theorem mem_blk1 (t : Fin cfg1.N) (i : S8192x2048.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v2).slice (win1_3.rect t)).set ↔ _
  rw [View.set_slice_whole, Rect.mem_set_unit]
  exact Iff.rfl

/-- Every index of the output array is in some point's block: row `r` in the block of point `r / 1024`. -/
theorem cover1 (i : S8192x2048.Idx) : ∃ t : Fin cfg1.N, (cfg1.win 3).flush t = true ∧ i ∈ ((cfg1.win 3).blk t).view.set := by
  have hi0 : (i 0).val < 8192 := (i 0).isLt
  have hi1 : (i 1).val < 2048 := (i 1).isLt
  have ht : (i 0).val / 1024 < cfg1.N := by show _ < grid1.N; rw [N_1]; omega
  obtain ⟨e0, e1, e2, e3, e4, e5, e6, e7⟩ := blockIdx1 ⟨(i 0).val / 1024, ht⟩
  refine ⟨⟨(i 0).val / 1024, ht⟩, flush1_3 _, ?_⟩
  rw [mem_blk1]
  intro a
  match a with
  | ⟨0, _⟩ =>
    show win1_3.index ⟨(i 0).val / 1024, ht⟩ (0 : Fin 2) * 1024 ≤ (i 0).val ∧ (i 0).val < win1_3.index ⟨(i 0).val / 1024, ht⟩ (0 : Fin 2) * 1024 + 1024
    rw [e6]; show (i 0).val / 1024 * 1024 ≤ (i 0).val ∧ (i 0).val < (i 0).val / 1024 * 1024 + 1024; omega
  | ⟨1, _⟩ =>
    show win1_3.index ⟨(i 0).val / 1024, ht⟩ (1 : Fin 2) * 2048 ≤ (i 1).val ∧ (i 1).val < win1_3.index ⟨(i 0).val / 1024, ht⟩ (1 : Fin 2) * 2048 + 2048
    rw [e7]; omega

/-- Region 1's output array ends as inputs times weights plus the bias row, of the arrays the region finds. -/
theorem final1 (c : Dev nD) : (dat1 V c).arrAt 3 cfg1.N
    = rowBias (M := 8192) (N := 2048) (rowsTimes (M := 8192) (K := 2048) (N := 2048) (V c main_arg0) (V c main_v0)) (V c main_v1) :=
  (dat1 V c).arrAt_eq_of_cover 3 _ (fun t _ => flushed1_eq V c t) cover1

end Cert.RegionValue

end
-- ==== Proof.Spec.lean ====
/-
  What both programs compute, as one function of the three argument arrays.

  The inputs `x` form an 8192 by 2048 array, the weights `w` a 2048 by 2048 one, the bias `b` a vector of 2048
  entries. Every weight is binarized (clipped to the interval from -1 to 1, then replaced by its sign); the inputs are
  multiplied by the binarized weights; and the bias, as one row, is added to every row of the product. Entry (p, q)
  of the result is the sum over k of x (p, k) * bin (w (k, q)), plus b q.
-/
import proofs.«155609_j83726092468397_1_alg».proof.Proof.LibPlainDot
import proofs.«155609_j83726092468397_1_alg».proof.Proof.LibRowBias
import proofs.«155609_j83726092468397_1_alg».proof.Proof.Binarize

noncomputable section

namespace Cert.Spec

open Idealize.ShloMosaic Idealize.ShloMosaic.ValueIdx Cert.LibPlainDot Cert.LibRowBias Cert.Binarize

/-- A vector of 2048 entries has as many entries as a 1 by 2048 array. -/
theorem castRow : (⟨1, ![2048]⟩ : Shape).ShapeCasts ⟨2, ![1, 2048]⟩ := by decide

/-- The bias vector as one row. -/
def biasRow (b : (⟨1, ![2048]⟩ : Shape).Idx → EReal) : (⟨2, ![1, 2048]⟩ : Shape).Idx → EReal :=
  shapeCast ⟨2, ![1, 2048]⟩ b castRow

/-- The result array: inputs times binarized weights, plus the bias row on every row. -/
def result (x : (⟨2, ![8192, 2048]⟩ : Shape).Idx → EReal) (w : (⟨2, ![2048, 2048]⟩ : Shape).Idx → EReal)
    (b : (⟨1, ![2048]⟩ : Shape).Idx → EReal) : (⟨2, ![8192, 2048]⟩ : Shape).Idx → EReal :=
  rowBias (M := 8192) (N := 2048) (rowsTimes (M := 8192) (K := 2048) (N := 2048) x (binArr w)) (biasRow b)

end Cert.Spec

end
-- ==== Proof.KernelValue.lean ====
/-
  The kernel program's result array is the specification of its three arguments.

  Between the two regions one host operation reshapes the bias vector to one row. So region 1 finds the inputs as
  launched, the weight array as region 0 left it — the binarized weights of the launch —, and the bias as one row; and
  what it leaves in the result array is inputs times binarized weights plus the bias row.
-/
import proofs.«155609_j83726092468397_1_alg».proof.Proof.Gen.KernelIdeal.Frame
import proofs.«155609_j83726092468397_1_alg».proof.Proof.RegionValue
import proofs.«155609_j83726092468397_1_alg».proof.Proof.Spec
import Idealize.ShloMosaic.Lib.StableHlo.Run

noncomputable section

namespace Cert.KernelValue

open Cert.KernelIdeal Cert.KernelIdeal.Gen Idealize.ShloMosaic Idealize.ShloMosaic.TcCoe Idealize.SL.Sem
open Idealize.ShloMosaic.StableHlo
open Cert.LibPlainDot Cert.LibRowBias Cert.Binarize Cert.Spec Cert.RegionValue

variable (m : (ℓ : Loc nD τ sig) → Buf (Elt Ideal) ℓ) (ρ : Dev nD → PrngReg)

/-- Region 1 finds the inputs as launched: neither region 0 nor the reshape writes them. -/
theorem entry_inputs (c : Dev nD) : V2 m ρ c main_arg0 = m ((c : Thread nD τ).loc main_arg0) := by
  show StableHlo.after hostOps1 (W1 m ρ c) (Proc.devRef .tc main_arg0) = _
  after_results
  exact W1_of_ne m ρ c main_arg0 (by decide)

/-- Region 1 finds the weight array as region 0's write-backs left it. -/
theorem entry_weights (c : Dev nD) : V2 m ρ c main_v0 = (dat0 (V0 m ρ) c).arrAt 1 cfg0.N := by
  show StableHlo.after hostOps1 (W1 m ρ c) (Proc.devRef .tc main_v0) = _
  after_results
  exact W1_arr m ρ c 1

/-- Region 1 finds the bias as one row: the launch's bias vector reshaped. -/
theorem entry_bias (c : Dev nD) : V2 m ρ c main_v1 = biasRow (m ((c : Thread nD τ).loc main_arg2)) := by
  show StableHlo.after hostOps1 (W1 m ρ c) (Proc.devRef .tc main_v1) = _
  after_results
  rw [W1_of_ne m ρ c main_arg2 (by decide)]
  rfl

/-- The result array after the run is the specification of the launch's arguments. -/
theorem result_eq (c : Dev nD) : W3 m ρ c (Proc.devRef .tc main_v2)
    = result (m ((c : Thread nD τ).loc main_arg0)) (m ((c : Thread nD τ).loc main_arg1)) (m ((c : Thread nD τ).loc main_arg2)) := by
  refine (W3_arr m ρ c 3).trans ?_
  rw [final1 (V2 m ρ) c, entry_inputs, entry_weights, entry_bias, final0 (V0 m ρ) c]
  rfl

end Cert.KernelValue

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«155609_j83726092468397_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.RefValue.lean ====
/-
  The reference program's result is the specification.

  The reference clips the weights, takes the sign, and forms  clipped + (sign - clipped)  — the binarized weight, since
  the clipped value is real —; multiplies the inputs by that array with one contraction over the 2048 columns; and adds
  the bias vector, broadcast first to one row and then to every row.
-/
import proofs.«155609_j83726092468397_1_alg».proof.Proof.Gen.ReferenceIdeal.Read
import proofs.«155609_j83726092468397_1_alg».proof.Proof.Spec
import proofs.«155609_j83726092468397_1_alg».proof.Proof.LibRowBiasHost

noncomputable section

namespace Cert.RefValue

open Idealize.ShloMosaic Idealize.ShloMosaic.ValueIdx Cert.ReferenceIdeal Cert.ReferenceIdeal.Read
open Cert.LibPlainDot Cert.LibRowBias Cert.Binarize Cert.Spec

variable [Cert.ReferenceIdeal.Facts]

/-- The reference's weight array, entry by entry: the straight-through spelling of the binarized weight. -/
theorem weights_eq (w : (⟨S2048x2048, .f32⟩ : BufTy).Contents (Elt Ideal)) :
    val_main_v3 (F := Ideal) w = binArr w := by
  funext i
  simp only [val_main_v3_apply, val_main_v2_apply, val_main_v1_apply, val_main_v0_apply, val_main_call0_v4_apply,
    val_main_call0_v3_apply, val_main_cst_0_apply, val_main_call0_v2_apply, val_main_call0_v1_apply,
    val_main_call0_v0_apply, val_main_cst_apply, Ideal.addf_def, Ideal.subf_def, Ideal.minimumf_def,
    Ideal.maximumf_def, Ideal.hostUnary_sign_def, Ideal.ofBits_def]
  exact straightThrough (w i)

/-- The reference's contraction record is the plain one: rows by columns, no batch axis. -/
theorem dot_plain : dot_S8192x2048_S2048x2048_S8192x2048_1_0_0_1_n_n = DotDims.plain 8192 2048 2048 := rfl

/-- The reference's result is the specification of its three arguments. -/
theorem result_eq (x : (⟨S8192x2048, .f32⟩ : BufTy).Contents (Elt Ideal)) (w : (⟨S2048x2048, .f32⟩ : BufTy).Contents (Elt Ideal))
    (b : (⟨S2048, .f32⟩ : BufTy).Contents (Elt Ideal)) :
    val_main_v7 (F := Ideal) x w b = result x w b := by
  unfold val_main_v7 val_main_v6 val_main_v5 val_main_v4
  rw [weights_eq, addf_bcastRow _ b Facts₀.bcast_S2048_S1x2048_1 Facts₀.bcast_S1x2048_S8192x2048_0_1 castRow]
  simp only [Host.dotGeneral]
  rw [dot_plain, dotGeneral_plain]
  rfl

end Cert.RefValue

end
-- ==== Proof.lean ====
/-
  A linear layer with binarized weights: the kernel program against its reference.

  Both programs take inputs x (8192 by 2048), weights w (2048 by 2048) and a bias b (2048 entries), binarize every
  weight — clip it to the interval from -1 to 1 and take the sign —, and return x times the binarized weights plus b
  on every row. The kernel program does it in two kernel regions: the first writes the binarized weights, four blocks
  of 512 rows; the second multiplies eight blocks of 1024 input rows by that whole array and adds the bias row. The
  reference spells the binarized weight as  clipped + (sign clipped - clipped)  and multiplies with one contraction.

  On the extended reals the two agree at every input. The clipped weight is a real number between -1 and 1 whatever
  the weight, so the reference's spelling cancels to the sign (Proof/Binarize.lean); the kernel's sign — 1 carrying the
  sign bit where the magnitude is above zero — is the same sign; a matrix product accumulated into zeros and a
  contraction are the same sums; and a block of rows of the product depends on that block of rows of the inputs only
  (Proof/RowBlocks.lean). The specification both sides are proved equal to is Proof/Spec.lean; the kernel side is
  Proof/KernelRun.lean (the run with its result named), Proof/BodyValue.lean (the two bodies), Proof/RegionValue.lean
  (each region's output array) and Proof/KernelValue.lean (the two regions joined across the bias' reshape); the
  reference side is Proof/RefValue.lean. The precondition (finite inputs) is not used by the value claim.
-/
import proofs.«155609_j83726092468397_1_alg».proof.Defs
import proofs.«155609_j83726092468397_1_alg».proof.Proof.Gen.Kernel
import proofs.«155609_j83726092468397_1_alg».proof.Proof.Gen.Kernel.Skeleton
import proofs.«155609_j83726092468397_1_alg».proof.Proof.Gen.Kernel.Launch
import proofs.«155609_j83726092468397_1_alg».proof.Proof.Gen.Kernel.Points
import proofs.«155609_j83726092468397_1_alg».proof.Proof.Gen.Kernel.Frame
import proofs.«155609_j83726092468397_1_alg».proof.Proof.Gen.KernelIdeal
import proofs.«155609_j83726092468397_1_alg».proof.Proof.Gen.KernelIdeal.Skeleton
import proofs.«155609_j83726092468397_1_alg».proof.Proof.Gen.KernelIdeal.Launch
import proofs.«155609_j83726092468397_1_alg».proof.Proof.Gen.KernelIdeal.Points
import proofs.«155609_j83726092468397_1_alg».proof.Proof.Gen.KernelIdeal.Frame
import proofs.«155609_j83726092468397_1_alg».proof.Proof.Gen.ReferenceIdeal
import proofs.«155609_j83726092468397_1_alg».proof.Proof.Gen.ReferenceIdeal.Run
import proofs.«155609_j83726092468397_1_alg».proof.Proof.Gen.ReferenceIdeal.Read
import proofs.«155609_j83726092468397_1_alg».proof.Proof.Gen.Pre_finite_inputs
import proofs.«155609_j83726092468397_1_alg».proof.Proof.KernelRun
import proofs.«155609_j83726092468397_1_alg».proof.Proof.KernelValue
import proofs.«155609_j83726092468397_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: "1 carrying the sign bit of v" printed as "-1 where v < 0, else 1". -/
theorem preserves : Cert.preserves_Kernel_KernelIdeal :=
  IdealRules.sign_bit.statement Cert.KernelIdeal.S512x2048 .f32

/-- From memories agreeing on the three arguments, both idealized programs end with the specification of those
    arguments in their result arrays. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelValue.result_eq m ρ c), (h c).2⟩)
      (Cert.KernelIdeal.RunValue.run_named m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
